-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10000x64 : Shape := ⟨2, ![10000, 64]⟩
abbrev S200x128 : Shape := ⟨2, ![200, 128]⟩
abbrev S200x64 : Shape := ⟨2, ![200, 64]⟩
abbrev S1x64 : Shape := ⟨2, ![1, 64]⟩
abbrev S200x10000 : Shape := ⟨2, ![200, 10000]⟩
abbrev S10000x16 : Shape := ⟨2, ![10000, 16]⟩
abbrev S200x16 : Shape := ⟨2, ![200, 16]⟩
abbrev S1x16 : Shape := ⟨2, ![1, 16]⟩

abbrev nBuf : Space → Nat
  | .hbm => 21
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S10000x64, .f32⟩
  | .hbm, ⟨9, _⟩ => ⟨S10000x64, .bf16⟩
  | .hbm, ⟨10, _⟩ => ⟨S1x64, .f32⟩
  | .hbm, ⟨11, _⟩ => ⟨S64x64, .bf16⟩
  | .hbm, ⟨12, _⟩ => ⟨S10000x64, .f32⟩
  | .hbm, ⟨13, _⟩ => ⟨S10000x10000, .bf16⟩
  | .hbm, ⟨14, _⟩ => ⟨S10000x64, .bf16⟩
  | .hbm, ⟨15, _⟩ => ⟨S1x64, .f32⟩
  | .hbm, ⟨16, _⟩ => ⟨S64x16, .bf16⟩
  | .hbm, ⟨17, _⟩ => ⟨S10000x16, .f32⟩
  | .hbm, ⟨18, _⟩ => ⟨S10000x16, .bf16⟩
  | .hbm, ⟨19, _⟩ => ⟨S1x16, .f32⟩
  | .hbm, ⟨20, _⟩ => ⟨S10000x16, .f32⟩
  | .local _ .vmem, ⟨0, _⟩ => ⟨S200x128, .f32⟩
  | .local _ .vmem, ⟨1, _⟩ => ⟨S200x128, .f32⟩
  | .local _ .vmem, ⟨2, _⟩ => ⟨S128x64, .f32⟩
  | .local _ .vmem, ⟨3, _⟩ => ⟨S200x64, .f32⟩
  | .local _ .vmem, ⟨4, _⟩ => ⟨S200x64, .f32⟩
  | .local _ .vmem, ⟨5, _⟩ => ⟨S200x10000, .f32⟩
  | .local _ .vmem, ⟨6, _⟩ => ⟨S200x10000, .f32⟩
  | .local _ .vmem, ⟨7, _⟩ => ⟨S10000x64, .bf16⟩
  | .local _ .vmem, ⟨8, _⟩ => ⟨S1x64, .f32⟩
  | .local _ .vmem, ⟨9, _⟩ => ⟨S64x64, .bf16⟩
  | .local _ .vmem, ⟨10, _⟩ => ⟨S200x64, .f32⟩
  | .local _ .vmem, ⟨11, _⟩ => ⟨S200x64, .f32⟩
  | .local _ .vmem, ⟨12, _⟩ => ⟨S200x10000, .bf16⟩
  | .local _ .vmem, ⟨13, _⟩ => ⟨S200x10000, .bf16⟩
  | .local _ .vmem, ⟨14, _⟩ => ⟨S200x10000, .bf16⟩
  | .local _ .vmem, ⟨15, _⟩ => ⟨S200x10000, .bf16⟩
  | .local _ .vmem, ⟨16, _⟩ => ⟨S10000x64, .bf16⟩
  | .local _ .vmem, ⟨17, _⟩ => ⟨S1x64, .f32⟩
  | .local _ .vmem, ⟨18, _⟩ => ⟨S64x16, .bf16⟩
  | .local _ .vmem, ⟨19, _⟩ => ⟨S200x16, .f32⟩
  | .local _ .vmem, ⟨20, _⟩ => ⟨S200x16, .f32⟩
  | .local _ .vmem, ⟨21, _⟩ => ⟨S200x10000, .bf16⟩
  | .local _ .vmem, ⟨22, _⟩ => ⟨S200x10000, .bf16⟩
  | .local _ .vmem, ⟨23, _⟩ => ⟨S10000x16, .bf16⟩
  | .local _ .vmem, ⟨24, _⟩ => ⟨S1x16, .f32⟩
  | .local _ .vmem, ⟨25, _⟩ => ⟨S200x16, .f32⟩
  | .local _ .vmem, ⟨26, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x16 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S200x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S200x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S200x128_S200x128_0_0 : ∀ a, (![0, 0] : Fin 2 → Nat) a + S200x128.size a ≤ S200x128.size a
  h_S200x128 : 0 < S200x128.numel
  inb_S128x64_S128x64_0_0 : ∀ a, (![0, 0] : Fin 2 → Nat) a + S128x64.size a ≤ S128x64.size a
  h_S128x64 : 0 < S128x64.numel
  inb_S200x64_S200x64_0_0 : ∀ a, (![0, 0] : Fin 2 → Nat) a + S200x64.size a ≤ S200x64.size a
  h_S200x64 : 0 < S200x64.numel
  bitsLt_bf16_f32 : FTy.bits .bf16 < FTy.bits .f32
  shapeCasts_S64_S1x64 : S64.ShapeCasts S1x64
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S200x10000_S200x10000 : S200x10000.ShapeCasts S200x10000
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S200x16_S200x16_0_0 : ∀ a, (![0, 0] : Fin 2 → Nat) a + S200x16.size a ≤ S200x16.size a
  h_S200x16 : 0 < S200x16.numel
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  dot_S200x128_S128x64_S200x64_1_0_0_1_n_n_wf : DotDims.WF S200x128 S128x64 S200x64 [1] [0] [0] [1] [] []
  dot_S200x10000_S10000x64_S200x64_1_0_0_1_n_n_wf : DotDims.WF S200x10000 S10000x64 S200x64 [1] [0] [0] [1] [] []
  dot_S200x64_S64x64_S200x64_1_0_0_1_n_n_wf : DotDims.WF S200x64 S64x64 S200x64 [1] [0] [0] [1] [] []
  dot_S200x64_S64x16_S200x16_1_0_0_1_n_n_wf : DotDims.WF S200x64 S64x16 S200x16 [1] [0] [0] [1] [] []
  dot_S200x10000_S10000x16_S200x16_1_0_0_1_n_n_wf : DotDims.WF S200x10000 S10000x16 S200x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S10000x128.size a
  hwx0_0 : ∀ i : grid0.Coords, EltTy.bits .f32 = 32 ∨ (Rect.block (s := S10000x128) S200x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S10000x64.size a
  hwx0_2 : ∀ i : grid0.Coords, EltTy.bits .f32 = 32 ∨ (Rect.block (s := S10000x64) S200x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x64.size a ≤ S10000x64.size a
  hwx1_4 : ∀ i : grid1.Coords, EltTy.bits .f32 = 32 ∨ (Rect.block (s := S10000x64) S200x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .bf16 = 32 ∨ (Rect.block (s := S10000x10000) S200x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .bf16 = 32 ∨ (Rect.block (s := S10000x10000) S200x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .bf16 = 32 ∨ (Rect.block (s := S64x16) S64x16.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x16.size a ≤ S10000x16.size a
  hwx2_4 : ∀ i : grid2.Coords, EltTy.bits .f32 = 32 ∨ (Rect.block (s := S10000x16) S200x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .bf16 = 32 ∨ (Rect.block (s := S10000x16) S10000x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x16.size a ≤ S10000x16.size a
  hwx3_3 : ∀ i : grid3.Coords, EltTy.bits .f32 = 32 ∨ (Rect.block (s := S10000x16) S200x16.size (cc3_transform_3 i) (hinb3_3 i)).WholeWords (EltTy.packing .f32)

variable [Facts₀]

def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S200x64_S64x16_S200x16_1_0_0_1_n_n : DotDims S200x64 S64x16 S200x16 where
  lhsContracting := [1]
  rhsContracting := [0]
  lhsNonContracting := [0]
  rhsNonContracting := [1]
  lhsBatch := []
  rhsBatch := []
  wf := dot_S200x64_S64x16_S200x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S200x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4_1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S200x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v4_1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S200x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | .hbm, ⟨29, _⟩ => ⟨S10000x16, .f32⟩
  | .hbm, ⟨30, _⟩ => ⟨S10000x16, .f32⟩
  | .hbm, ⟨31, _⟩ => ⟨S_, .f32⟩
  | .hbm, ⟨32, _⟩ => ⟨S10000x16, .f32⟩
  | .hbm, ⟨33, _⟩ => ⟨S10000x16, .f32⟩
  | .hbm, ⟨34, _⟩ => ⟨S_, .f32⟩
  | .hbm, ⟨35, _⟩ => ⟨S10000x16, .f32⟩
  | .hbm, ⟨36, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.KernelRun.lean ====
/-
  The program's run with its result named.

  The program is four launches with stretches of host operations between them. Following the buffers through the
  seven segments, from the launch memory to the return, every buffer that is never released ends at the contents
  the last boundary assigns it; read at the result's buffer this names the result, and read at an argument's buffer,
  which no segment writes, it is the launch contents.
-/
import proofs.«151030_g5583457484891_cont_sun_c4_296_4_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, without a fault, with the result's buffer at the last boundary's contents and
    every argument's buffer as launched. -/
theorem run : θ_run defs (onTc (τ := τ) (main (F := F))) ⟨m, fun _ => 0, ρ⟩ (fun r => ∀ c : Dev nD,
      r.2.mem ((c.tc : Thread nD τ).loc main_v11) = W7 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v11 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.ValueRun

end
-- ==== Proof.GcnSpec.lean ====
/-
  The function both programs compute, stated once over the extended reals.

  A graph convolution with dense adjacency `A`, support `S` and bias `b` has at row `i` and column `j` the value
  `∑ₖ A(i,k)·S(k,j) + b(j)`. A hidden layer clamps that at the zero word from below and multiplies by the next weight
  matrix, so that what it hands on is already the next layer's support; the last layer applies the logistic function.
  Three such layers over the first support `x·W₁` are the whole network. Every function here is stated for any number
  of rows, so that the same definition describes a block of rows of the adjacency and the whole matrix: a row of the
  result depends on one row of `A` only (`mm_rows`, `agg_rows`, `layer_rows`, `outp_rows`).
-/
import Idealize.ShloMosaic.PureOps.Ideal.Laws
import Idealize.ShloMosaic.Lib.ValueIdx
open scoped BigOperators
noncomputable section
namespace Cert.Gcn
open Idealize.ShloMosaic Idealize.ShloMosaic.ValueIdx

/-- The matrix product: entry `(i, j)` is the sum over `k` of `l(i, k) · r(k, j)`. -/
def mm {M K N : Nat} (l : (⟨2, ![M, K]⟩ : Shape).Idx → EReal) (r : (⟨2, ![K, N]⟩ : Shape).Idx → EReal) :
    (⟨2, ![M, N]⟩ : Shape).Idx → EReal :=
  fun i => ∑ k : Fin K, l (ix2 (i 0) k) * r (ix2 k (i 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- Aggregation over the neighbours plus the bias of the column: `(A·S)(i, j) + b(j)`. -/
def agg {M K N : Nat} (A : (⟨2, ![M, K]⟩ : Shape).Idx → EReal) (S : (⟨2, ![K, N]⟩ : Shape).Idx → EReal)
    (b : (⟨1, ![N]⟩ : Shape).Idx → EReal) : (⟨2, ![M, N]⟩ : Shape).Idx → EReal :=
  fun i => mm A S i + b (ix1 (i 1))

theorem agg_apply {M K N : Nat} (A : (⟨2, ![M, K]⟩ : Shape).Idx → EReal) (S : (⟨2, ![K, N]⟩ : Shape).Idx → EReal)
    (b : (⟨1, ![N]⟩ : Shape).Idx → EReal) (i : Fin M) (j : Fin N) :
    agg A S b (ix2 i j) = (∑ k : Fin K, A (ix2 i k) * S (ix2 k j)) + b (ix1 j) := rfl

/-- The zero word of the 32-bit format, as both programs spell the lower clamp. -/
def zero32 : EReal := Ideal.ofBits .f32 0x00000000#32

/-- A hidden layer handing on the next support: `max(A·S + b, 0) · W`. -/
def layer {M K N P : Nat} (A : (⟨2, ![M, K]⟩ : Shape).Idx → EReal) (S : (⟨2, ![K, N]⟩ : Shape).Idx → EReal)
    (b : (⟨1, ![N]⟩ : Shape).Idx → EReal) (W : (⟨2, ![N, P]⟩ : Shape).Idx → EReal) : (⟨2, ![M, P]⟩ : Shape).Idx → EReal :=
  mm (fun i => max (agg A S b i) zero32) W

theorem layer_apply {M K N P : Nat} (A : (⟨2, ![M, K]⟩ : Shape).Idx → EReal) (S : (⟨2, ![K, N]⟩ : Shape).Idx → EReal)
    (b : (⟨1, ![N]⟩ : Shape).Idx → EReal) (W : (⟨2, ![N, P]⟩ : Shape).Idx → EReal) (i : Fin M) (j : Fin P) :
    layer A S b W (ix2 i j) = ∑ n : Fin N, max (agg A S b (ix2 i n)) zero32 * W (ix2 n j) := rfl

/-- The output layer: the logistic function of `A·S + b`. -/
def outp {M K N : Nat} (A : (⟨2, ![M, K]⟩ : Shape).Idx → EReal) (S : (⟨2, ![K, N]⟩ : Shape).Idx → EReal)
    (b : (⟨1, ![N]⟩ : Shape).Idx → EReal) : (⟨2, ![M, N]⟩ : Shape).Idx → EReal :=
  fun i => Ideal.logistic (agg A S b i)

theorem outp_apply {M K N : Nat} (A : (⟨2, ![M, K]⟩ : Shape).Idx → EReal) (S : (⟨2, ![K, N]⟩ : Shape).Idx → EReal)
    (b : (⟨1, ![N]⟩ : Shape).Idx → EReal) (i : Fin M) (j : Fin N) :
    outp A S b (ix2 i j) = Ideal.logistic (agg A S b (ix2 i j)) := rfl

/-- A bias kept as a matrix with one row, read as the vector of its columns. -/
def rowvec {N : Nat} (b : (⟨2, ![1, N]⟩ : Shape).Idx → EReal) : (⟨1, ![N]⟩ : Shape).Idx → EReal :=
  fun j => b (ix2 (0 : Fin 1) (j 0))

theorem rowvec_apply {N : Nat} (b : (⟨2, ![1, N]⟩ : Shape).Idx → EReal) (j : Fin N) :
    rowvec b (ix1 j) = b (ix2 (0 : Fin 1) j) := rfl

/-! ## A row of the result depends on one row of the left factor -/

/-- Rows `σ(0), σ(1), …` of `A`, as a matrix of their own. -/
def rows {R M K : Nat} (σ : Fin R → Fin M) (A : (⟨2, ![M, K]⟩ : Shape).Idx → EReal) : (⟨2, ![R, K]⟩ : Shape).Idx → EReal :=
  fun y => A (ix2 (σ (y 0)) (y 1))

theorem mm_rows {R M K N : Nat} (σ : Fin R → Fin M) (A : (⟨2, ![M, K]⟩ : Shape).Idx → EReal)
    (S : (⟨2, ![K, N]⟩ : Shape).Idx → EReal) (p : Fin R) (q : Fin N) :
    mm (rows σ A) S (ix2 p q) = mm A S (ix2 (σ p) q) := rfl

theorem agg_rows {R M K N : Nat} (σ : Fin R → Fin M) (A : (⟨2, ![M, K]⟩ : Shape).Idx → EReal)
    (S : (⟨2, ![K, N]⟩ : Shape).Idx → EReal) (b : (⟨1, ![N]⟩ : Shape).Idx → EReal) (p : Fin R) (q : Fin N) :
    agg (rows σ A) S b (ix2 p q) = agg A S b (ix2 (σ p) q) := rfl

theorem layer_rows {R M K N P : Nat} (σ : Fin R → Fin M) (A : (⟨2, ![M, K]⟩ : Shape).Idx → EReal)
    (S : (⟨2, ![K, N]⟩ : Shape).Idx → EReal) (b : (⟨1, ![N]⟩ : Shape).Idx → EReal) (W : (⟨2, ![N, P]⟩ : Shape).Idx → EReal)
    (p : Fin R) (q : Fin P) :
    layer (rows σ A) S b W (ix2 p q) = layer A S b W (ix2 (σ p) q) := rfl

theorem outp_rows {R M K N : Nat} (σ : Fin R → Fin M) (A : (⟨2, ![M, K]⟩ : Shape).Idx → EReal)
    (S : (⟨2, ![K, N]⟩ : Shape).Idx → EReal) (b : (⟨1, ![N]⟩ : Shape).Idx → EReal) (p : Fin R) (q : Fin N) :
    outp (rows σ A) S b (ix2 p q) = outp A S b (ix2 (σ p) q) := rfl

/-- Row `p` of the `n`-th block of `200` rows is row `200·n + p` of the `10000`. -/
def blockRow (n : Nat) (hn : n < 50) (p : Fin 200) : Fin 10000 := ⟨n * 200 + p.val, by omega⟩

theorem blockRow_val (n : Nat) (hn : n < 50) (p : Fin 200) : (blockRow n hn p).val = n * 200 + p.val := rfl

/-! ## The network -/

/-- The three-layer network on `10000` nodes with `128` input features, two hidden widths `64` and `16` classes. -/
def net (x : (⟨2, ![10000, 128]⟩ : Shape).Idx → EReal) (adj : (⟨2, ![10000, 10000]⟩ : Shape).Idx → EReal)
    (W1 : (⟨2, ![128, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 16]⟩ : Shape).Idx → EReal) (b3 : (⟨1, ![16]⟩ : Shape).Idx → EReal) :
    (⟨2, ![10000, 16]⟩ : Shape).Idx → EReal :=
  outp adj (layer adj (layer adj (mm x W1) b1 W2) b2 W3) b3

end Cert.Gcn
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Payloads.lean ====
/-
  What each kernel body stores, as a function of the blocks it loads.

  Every body multiplies the block of adjacency rows it was handed by the whole support, adds the bias row to every
  row, and then either clamps at zero and multiplies by the next weight matrix (the two hidden layers) or applies the
  logistic function (the last layer); the first body is a bare product. At the ideal values a change of float format is
  the identity, so each stored value is the specification's function of the loaded blocks.
-/
import proofs.«151030_g5583457484891_cont_sun_c4_296_4_alg».proof.Proof.Gen.KernelIdeal.Skeleton
import proofs.«151030_g5583457484891_cont_sun_c4_296_4_alg».proof.Proof.GcnSpec
import proofs.«151030_g5583457484891_cont_sun_c4_296_4_alg».proof.Proof.LibMatmul
import Idealize.ShloMosaic.Lib.ValueLayout
import Idealize.ShloMosaic.Lib.Pipeline.Value
open scoped BigOperators
noncomputable section
namespace Cert.KernelIdeal.Pay
open Idealize.ShloMosaic Idealize.ShloMosaic.ValueIdx Cert.KernelIdeal Cert.KernelIdeal.Gen

/-! ## The pieces, for any block sizes

  A block `A : [M, K]` of adjacency rows, the support `S : [K, N]`, the bias kept as a one-row matrix `b : [1, N]` and
  the next weight matrix `W : [N, P]`. The product into the zero accumulator is the plain sum of products, the row
  broadcast reads the bias's one row, a change of float format is the identity at the ideal values, and the clamp's lower
  bound is the zero word itself, never evaluated. -/

section Pieces
variable {M K N P : Nat} {φ₁ φ₂ φ₃ : FTy}

/-- The pre-activation `A·S + b`: at `(p, n)` the sum over `k` of `A(p, k) · S(k, n)`, plus `b(0, n)`. -/
theorem preact_apply (A : FVec Ideal ⟨2, ![M, K]⟩ φ₁) (S : FVec Ideal ⟨2, ![K, N]⟩ φ₂) (b : FVec Ideal ⟨2, ![1, N]⟩ .f32)
    (h : (⟨2, ![1, N]⟩ : Shape).Broadcasts ⟨2, ![M, N]⟩) (p : Fin M) (n : Fin N) :
    addf (matmul (F := Ideal) (DotDims.plain M K N) none A S (constant ⟨2, ![M, N]⟩ .f32 0x00000000#32))
        (broadcastTo ⟨2, ![M, N]⟩ b h) (ix2 p n)
      = Cert.Gcn.agg A S (Cert.Gcn.rowvec b) (ix2 p n) := by
  rw [addf_apply, Cert.MatOps.matmul_plain_zero_apply none A S p n, broadcastTo_1b_ab_apply b h p n]
  rfl

/-- A hidden layer's body `max(A·S + b, 0) · W`: at `(p, q)` the sum over `n` of the clamped pre-activation at
    `(p, n)` times `W(n, q)`. The change of format between the clamp and the second product is the identity. -/
theorem layer_body_apply (A : FVec Ideal ⟨2, ![M, K]⟩ φ₁) (S : FVec Ideal ⟨2, ![K, N]⟩ φ₂) (b : FVec Ideal ⟨2, ![1, N]⟩ .f32)
    (W : FVec Ideal ⟨2, ![N, P]⟩ φ₃) (h : (⟨2, ![1, N]⟩ : Shape).Broadcasts ⟨2, ![M, N]⟩) (hlt : FTy.bits .bf16 < FTy.bits .f32)
    (p : Fin M) (q : Fin P) :
    matmul (F := Ideal) (DotDims.plain M N P) none
        (truncf .bf16
          (maximumf
            (addf (matmul (F := Ideal) (DotDims.plain M K N) none A S (constant ⟨2, ![M, N]⟩ .f32 0x00000000#32))
              (broadcastTo ⟨2, ![M, N]⟩ b h))
            (broadcast ⟨2, ![M, N]⟩ (Scalar.ofBits (F := Ideal) .f32 0x00000000#32)))
          hlt)
        W (constant ⟨2, ![M, P]⟩ .f32 0x00000000#32) (ix2 p q)
      = Cert.Gcn.layer A S (Cert.Gcn.rowvec b) W (ix2 p q) := by
  rw [Cert.Gcn.layer_apply]
  refine (Cert.MatOps.matmul_plain_zero_apply none _ W p q).trans ?_
  refine Finset.sum_congr rfl fun n _ => ?_
  exact congrArg (fun t : EReal => max t Cert.Gcn.zero32 * W (ix2 n q)) (preact_apply A S b h p n)

/-- The output layer's body: the logistic function of the pre-activation. -/
theorem outp_body_apply (A : FVec Ideal ⟨2, ![M, K]⟩ φ₁) (S : FVec Ideal ⟨2, ![K, N]⟩ φ₂) (b : FVec Ideal ⟨2, ![1, N]⟩ .f32)
    (h : (⟨2, ![1, N]⟩ : Shape).Broadcasts ⟨2, ![M, N]⟩) (p : Fin M) (n : Fin N) :
    logistic
        (addf (matmul (F := Ideal) (DotDims.plain M K N) none A S (constant ⟨2, ![M, N]⟩ .f32 0x00000000#32))
          (broadcastTo ⟨2, ![M, N]⟩ b h)) (ix2 p n)
      = Cert.Gcn.outp A S (Cert.Gcn.rowvec b) (ix2 p n) := by
  rw [Cert.Gcn.outp_apply]
  exact congrArg Ideal.logistic (preact_apply A S b h p n)

end Pieces

/-! ## The four bodies -/

/-- The projection body stores the product of its block of feature rows with the weight matrix. -/
theorem pay0 (x0 : Vec Ideal S200x128 .f32) (x1 : Vec Ideal S128x64 .f32) :
    k0_pay1 (F := Ideal) x0 x1 = Cert.Gcn.mm x0 x1 := by
  funext j
  obtain ⟨p, q, rfl⟩ : ∃ (p : Fin 200) (q : Fin 64), j = ix2 p q := ⟨j 0, j 1, eq_ix2 j⟩
  unfold k0_pay1
  exact Cert.MatOps.matmul_plain_zero_apply (M := 200) (K := 128) (N := 64) none x0 x1 p q

/-- The copy of the adjacency block in the narrower format is the block itself. -/
theorem pay1_copy (x0 : Vec Ideal S200x10000 .f32) : k1_pay1 (F := Ideal) x0 = x0 := by
  funext j
  unfold k1_pay1
  rfl

/-- The first hidden layer's body. -/
theorem pay1 (x0 : Vec Ideal S200x10000 .f32) (x1 : Vec Ideal S10000x64 .bf16) (x2 : Vec Ideal S1x64 .f32) (x3 : Vec Ideal S64x64 .bf16) :
    k1_pay2 (F := Ideal) x0 x1 x2 x3 = Cert.Gcn.layer x0 x1 (Cert.Gcn.rowvec x2) x3 := by
  funext j
  obtain ⟨p, q, rfl⟩ : ∃ (p : Fin 200) (q : Fin 64), j = ix2 p q := ⟨j 0, j 1, eq_ix2 j⟩
  unfold k1_pay2
  rw [pay1_copy, shapeCast_self x1, shapeCast_self x2, shapeCast_self x3]
  exact layer_body_apply (M := 200) (K := 10000) (N := 64) (P := 64) x0 x1 x2 x3 broadcasts_S1x64_S200x64 bitsLt_bf16_f32 p q

/-- The second hidden layer's body. -/
theorem pay2 (x0 : Vec Ideal S200x10000 .bf16) (x1 : Vec Ideal S10000x64 .bf16) (x2 : Vec Ideal S1x64 .f32) (x3 : Vec Ideal S64x16 .bf16) :
    k2_pay1 (F := Ideal) x0 x1 x2 x3 = Cert.Gcn.layer x0 x1 (Cert.Gcn.rowvec x2) x3 := by
  funext j
  obtain ⟨p, q, rfl⟩ : ∃ (p : Fin 200) (q : Fin 16), j = ix2 p q := ⟨j 0, j 1, eq_ix2 j⟩
  unfold k2_pay1
  rw [shapeCast_self x0, shapeCast_self x1, shapeCast_self x2, shapeCast_self x3]
  exact layer_body_apply (M := 200) (K := 10000) (N := 64) (P := 16) x0 x1 x2 x3 broadcasts_S1x64_S200x64 bitsLt_bf16_f32 p q

/-- The output layer's body. -/
theorem pay3 (x0 : Vec Ideal S200x10000 .bf16) (x1 : Vec Ideal S10000x16 .bf16) (x2 : Vec Ideal S1x16 .f32) :
    k3_pay1 (F := Ideal) x0 x1 x2 = Cert.Gcn.outp x0 x1 (Cert.Gcn.rowvec x2) := by
  funext j
  obtain ⟨p, q, rfl⟩ : ∃ (p : Fin 200) (q : Fin 16), j = ix2 p q := ⟨j 0, j 1, eq_ix2 j⟩
  unfold k3_pay1
  rw [shapeCast_self x0, shapeCast_self x1, shapeCast_self x2]
  exact outp_body_apply (M := 200) (K := 10000) (N := 16) x0 x1 x2 broadcasts_S1x16_S200x16 p q

end Cert.KernelIdeal.Pay
-- ==== Proof.Region0.lean ====
/-
  The first launch: the support of the first layer.

  The launch runs over fifty grid points; point `t` is handed rows `200·t … 200·t + 199` of the feature matrix and
  the whole weight matrix, and writes back their product as rows `200·t …` of the result. A row of a product depends
  on one row of the left factor, so what point `t` writes back is that block of rows of the product of the whole
  matrices; the fifty blocks cover every row, so the result array ends holding `x·W₁`.
-/
import proofs.«151030_g5583457484891_cont_sun_c4_296_4_alg».proof.Proof.Gen.KernelIdeal.Frame
import proofs.«151030_g5583457484891_cont_sun_c4_296_4_alg».proof.Proof.Payloads
import Idealize.ShloMosaic.Lib.Pipeline.Value
set_option maxRecDepth 16384
open scoped BigOperators
noncomputable section
namespace Cert.KernelIdeal.Region0
open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The zero offset, as the constant function. -/
theorem hz : (![0, 0] : Fin 2 → Nat) = fun _ => 0 := funext fun a => by fin_cases a <;> rfl

/-- The three index maps over the grid: the feature and result windows move down one block of rows per point, the
    weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A grid point is one of fifty. -/
theorem tlt (t : Fin cfg0.N) : t.val < 50 := lt_of_lt_of_eq t.isLt N_0

/-- The block of feature rows at point `t` is rows `200·t …` of the feature matrix. -/
theorem blk_rows (c : Dev nD) (t : Fin cfg0.N) :
    (iblk0 V c 0 t : S200x128.Idx → EReal) = Cert.Gcn.rows (Cert.Gcn.blockRow t.val (tlt t)) (V c main_arg0) := by
  obtain ⟨e0, e1, e2, e3, e4, e5⟩ := idx_facts t
  funext y
  show V c main_arg0 (((cfg0.win 0).blk t).view.emb y) = V c main_arg0 (ix2 (Cert.Gcn.blockRow t.val (tlt t) (y 0)) (y 1))
  refine congrArg (V c main_arg0) ?_
  funext a; apply Fin.ext
  match a with
  | ⟨0, _⟩ => show win0_0.index t (0 : Fin 2) * 200 + 1 * (y 0).val = t.val * 200 + (y 0).val; omega
  | ⟨1, _⟩ => show win0_0.index t (1 : Fin 2) * 128 + 1 * (y 1).val = (y 1).val; omega

/-- The weight window's block is the whole weight matrix at every point. -/
theorem blk_whole (c : Dev nD) (t : Fin cfg0.N) :
    (iblk0 V c 1 t : S128x64.Idx → EReal) = V c main_arg2 := by
  obtain ⟨e0, e1, e2, e3, e4, e5⟩ := idx_facts t
  funext y
  show V c main_arg2 (((cfg0.win 1).blk t).view.emb y) = V c main_arg2 y
  refine congrArg (V c main_arg2) ?_
  funext a; apply Fin.ext
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The output block's entry `(p, q)` is entry `(200·t + p, q)` of the output array. -/
theorem emb_out (t : Fin cfg0.N) (p : Fin 200) (q : Fin 64) :
    (((cfg0.win 2).blk t).view.emb (ix2 p q) : S10000x64.Idx) = ix2 (Cert.Gcn.blockRow t.val (tlt t) p) q := by
  obtain ⟨e0, e1, e2, e3, e4, e5⟩ := idx_facts t
  funext a; apply Fin.ext
  match a with
  | ⟨0, _⟩ => show win0_2.index t (0 : Fin 2) * 200 + 1 * p.val = t.val * 200 + p.val; omega
  | ⟨1, _⟩ => show win0_2.index t (1 : Fin 2) * 64 + 1 * q.val = q.val; omega

/-- What point `t` writes back is block `t` of the product of the whole matrices. -/
theorem flushed_eq (c : Dev nD) (t : Fin cfg0.N) :
    (dat0 V c).flushed 2 t = ((cfg0.win 2).blk t).view.read (Elt Ideal) (Cert.Gcn.mm (V c main_arg0) (V c main_arg2)) := by
  show (cfg0.win 2).cut (grid0.coords t) ((dat0 V c).after 2 t) = _
  rw [after0_2]
  unfold out0_2
  rw [View.canon_unit_zero hz]
  simp only [View.ld_unit_zero (S := S200x128) hz, View.ld_unit_zero (S := S128x64) hz]
  rw [Cert.KernelIdeal.Pay.pay0]
  funext j
  obtain ⟨p, q, rfl⟩ : ∃ (p : Fin 200) (q : Fin 64), j = ix2 p q := ⟨j 0, j 1, eq_ix2 j⟩
  show Cert.Gcn.mm (iblk0 V c 0 t : S200x128.Idx → EReal) (iblk0 V c 1 t : S128x64.Idx → EReal) (ix2 p q)
      = Cert.Gcn.mm (V c main_arg0) (V c main_arg2) (((cfg0.win 2).blk t).view.emb (ix2 p q))
  rw [emb_out, blk_rows, blk_whole]
  exact Cert.Gcn.mm_rows _ _ _ p q

/-- An index of the result array lies in point `t`'s block iff each coordinate lies in the block's range on its axis. -/
theorem mem_blk (t : Fin cfg0.N) (i : S10000x64.Idx) :
    i ∈ ((cfg0.win 2).blk t).view.set ↔ ∀ a : Fin 2, win0_2.index t a * S200x64.size a ≤ (i a).val ∧ (i a).val < win0_2.index t a * S200x64.size a + S200x64.size a := by
  show i ∈ ((View.whole main_v0).slice (win0_2.rect t)).set ↔ _
  rw [View.set_slice_whole, Rect.mem_set_unit]
  exact Iff.rfl

/-- Row `r` lies in block `r / 200`: the blocks cover the result array. -/
theorem cover (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  obtain ⟨t, ht⟩ : ∃ t : Fin cfg0.N, t.val = (i 0).val / 200 :=
    ⟨⟨(i 0).val / 200, lt_of_lt_of_eq (by omega : (i 0).val / 200 < 50) N_0.symm⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 64 ≤ (i 1).val ∧ (i 1).val < win0_2.index t (1 : Fin 2) * 64 + 64; omega

/-- After the launch the result array holds the product of the feature matrix and the first weight matrix, as the
    launch found them. -/
theorem arr (c : Dev nD) : (dat0 V c).arrAt 2 cfg0.N = Cert.Gcn.mm (V c main_arg0) (V c main_arg2) :=
  (dat0 V c).arrAt_eq_of_cover 2 _ (fun t _ => flushed_eq V c t) cover

end Cert.KernelIdeal.Region0
-- ==== Proof.Region1.lean ====
/-
  The second launch: the first hidden layer, and the copy of the adjacency in the narrower format.

  The launch runs over fifty grid points; point `t` is handed rows `200·t … 200·t + 199` of the adjacency matrix and
  the whole support, bias row and weight matrix. It writes back, as rows `200·t …` of the first result, the clamped
  aggregation of its rows times the weight matrix, and, as rows `200·t …` of the second result, its rows of the adjacency
  themselves. A row of the layer depends on one row of the adjacency, so what point `t` writes back is that block of rows
  of the layer of the whole matrices; the fifty blocks cover every row of either result, so the first ends holding the
  layer and the second the adjacency.
-/
import proofs.«151030_g5583457484891_cont_sun_c4_296_4_alg».proof.Proof.Gen.KernelIdeal.Frame
import proofs.«151030_g5583457484891_cont_sun_c4_296_4_alg».proof.Proof.Payloads
import Idealize.ShloMosaic.Lib.Pipeline.Value
set_option maxRecDepth 16384
open scoped BigOperators
noncomputable section
namespace Cert.KernelIdeal.Region1
open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The zero offset, as the constant function. -/
theorem hz : (![0, 0] : Fin 2 → Nat) = fun _ => 0 := funext fun a => by fin_cases a <;> rfl

/-- The six index maps over the grid: the adjacency window and the two result windows move down one block of rows per
    point; the support, bias and weight windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- A grid point is one of fifty. -/
theorem tlt (t : Fin cfg1.N) : t.val < 50 := lt_of_lt_of_eq t.isLt N_1

/-- The block of adjacency rows at point `t` is rows `200·t …` of the adjacency matrix. -/
theorem blk_rows (c : Dev nD) (t : Fin cfg1.N) :
    (iblk1 V c 0 t : S200x10000.Idx → EReal) = Cert.Gcn.rows (Cert.Gcn.blockRow t.val (tlt t)) (V c main_arg1) := by
  obtain ⟨e0, e1, -⟩ := idx_facts t
  funext y
  show V c main_arg1 (((cfg1.win 0).blk t).view.emb y) = V c main_arg1 (ix2 (Cert.Gcn.blockRow t.val (tlt t) (y 0)) (y 1))
  refine congrArg (V c main_arg1) ?_
  funext a; apply Fin.ext
  match a with
  | ⟨0, _⟩ => show win1_0.index t (0 : Fin 2) * 200 + 1 * (y 0).val = t.val * 200 + (y 0).val; omega
  | ⟨1, _⟩ => show win1_0.index t (1 : Fin 2) * 10000 + 1 * (y 1).val = (y 1).val; omega

/-- The support window's block is the whole support at every point. -/
theorem blk_support (c : Dev nD) (t : Fin cfg1.N) :
    (iblk1 V c 1 t : S10000x64.Idx → EReal) = V c main_v1 := by
  obtain ⟨-, -, e2, e3, -⟩ := idx_facts t
  funext y
  show V c main_v1 (((cfg1.win 1).blk t).view.emb y) = V c main_v1 y
  refine congrArg (V c main_v1) ?_
  funext a; apply Fin.ext
  match a with
  | ⟨0, _⟩ => show win1_1.index t (0 : Fin 2) * 10000 + 1 * (y 0).val = (y 0).val; omega
  | ⟨1, _⟩ => show win1_1.index t (1 : Fin 2) * 64 + 1 * (y 1).val = (y 1).val; omega

/-- The bias window's block is the whole bias row at every point. -/
theorem blk_bias (c : Dev nD) (t : Fin cfg1.N) :
    (iblk1 V c 2 t : S1x64.Idx → EReal) = V c main_v2 := by
  obtain ⟨-, -, -, -, e4, e5, -⟩ := idx_facts t
  funext y
  show V c main_v2 (((cfg1.win 2).blk t).view.emb y) = V c main_v2 y
  refine congrArg (V c main_v2) ?_
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The weight window's block is the whole weight matrix at every point. -/
theorem blk_weight (c : Dev nD) (t : Fin cfg1.N) :
    (iblk1 V c 3 t : S64x64.Idx → EReal) = V c main_v3 := by
  obtain ⟨-, -, -, -, -, -, e6, e7, -⟩ := idx_facts t
  funext y
  show V c main_v3 (((cfg1.win 3).blk t).view.emb y) = V c main_v3 y
  refine congrArg (V c main_v3) ?_
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The layer block's entry `(p, q)` is entry `(200·t + p, q)` of the first result array. -/
theorem emb_layer (t : Fin cfg1.N) (p : Fin 200) (q : Fin 64) :
    (((cfg1.win 4).blk t).view.emb (ix2 p q) : S10000x64.Idx) = ix2 (Cert.Gcn.blockRow t.val (tlt t) p) q := by
  obtain ⟨-, -, -, -, -, -, -, -, e8, e9, -⟩ := idx_facts t
  funext a; apply Fin.ext
  match a with
  | ⟨0, _⟩ => show win1_4.index t (0 : Fin 2) * 200 + 1 * p.val = t.val * 200 + p.val; omega
  | ⟨1, _⟩ => show win1_4.index t (1 : Fin 2) * 64 + 1 * q.val = q.val; omega

/-- The copy block's entry `(p, q)` is entry `(200·t + p, q)` of the second result array. -/
theorem emb_copy (t : Fin cfg1.N) (p : Fin 200) (q : Fin 10000) :
    (((cfg1.win 5).blk t).view.emb (ix2 p q) : S10000x10000.Idx) = ix2 (Cert.Gcn.blockRow t.val (tlt t) p) q := by
  obtain ⟨-, -, -, -, -, -, -, -, -, -, e10, e11⟩ := idx_facts t
  funext a; apply Fin.ext
  match a with
  | ⟨0, _⟩ => show win1_5.index t (0 : Fin 2) * 200 + 1 * p.val = t.val * 200 + p.val; omega
  | ⟨1, _⟩ => show win1_5.index t (1 : Fin 2) * 10000 + 1 * q.val = q.val; omega

/-- What point `t` writes back to the first result is block `t` of the layer of the whole matrices. -/
theorem flushed_layer (c : Dev nD) (t : Fin cfg1.N) :
    (dat1 V c).flushed 4 t = ((cfg1.win 4).blk t).view.read (Elt Ideal)
      (Cert.Gcn.layer (V c main_arg1) (V c main_v1) (Cert.Gcn.rowvec (V c main_v2)) (V c main_v3)) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x64) hz,
    View.ld_unit_zero (S := S1x64) hz, View.ld_unit_zero (S := S64x64) hz]
  rw [Cert.KernelIdeal.Pay.pay1]
  funext j
  obtain ⟨p, q, rfl⟩ : ∃ (p : Fin 200) (q : Fin 64), j = ix2 p q := ⟨j 0, j 1, eq_ix2 j⟩
  show Cert.Gcn.layer (iblk1 V c 0 t : S200x10000.Idx → EReal) (iblk1 V c 1 t : S10000x64.Idx → EReal)
        (Cert.Gcn.rowvec (iblk1 V c 2 t : S1x64.Idx → EReal)) (iblk1 V c 3 t : S64x64.Idx → EReal) (ix2 p q)
      = Cert.Gcn.layer (V c main_arg1) (V c main_v1) (Cert.Gcn.rowvec (V c main_v2)) (V c main_v3)
        (((cfg1.win 4).blk t).view.emb (ix2 p q))
  rw [emb_layer, blk_rows, blk_support, blk_bias, blk_weight]
  exact Cert.Gcn.layer_rows _ _ _ _ _ p q

/-- What point `t` writes back to the second result is block `t` of the adjacency matrix: the change of format is
    the identity. -/
theorem flushed_copy (c : Dev nD) (t : Fin cfg1.N) :
    (dat1 V c).flushed 5 t = ((cfg1.win 5).blk t).view.read (Elt Ideal) (V c main_arg1 : S10000x10000.Idx → EReal) := by
  show (cfg1.win 5).cut (grid1.coords t) ((dat1 V c).after 5 t) = _
  rw [after1_5]
  unfold out1_5
  rw [View.canon_unit_zero hz]
  simp only [View.ld_unit_zero (S := S200x10000) hz]
  rw [Cert.KernelIdeal.Pay.pay1_copy]
  funext j
  obtain ⟨p, q, rfl⟩ : ∃ (p : Fin 200) (q : Fin 10000), j = ix2 p q := ⟨j 0, j 1, eq_ix2 j⟩
  show (iblk1 V c 0 t : S200x10000.Idx → EReal) (ix2 p q)
      = (V c main_arg1 : S10000x10000.Idx → EReal) (((cfg1.win 5).blk t).view.emb (ix2 p q))
  rw [emb_copy, blk_rows]
  rfl

/-- An index of the first result array lies in point `t`'s block iff each coordinate lies in the block's range on its axis. -/
theorem mem_blk_layer (t : Fin cfg1.N) (i : S10000x64.Idx) :
    i ∈ ((cfg1.win 4).blk t).view.set ↔ ∀ a : Fin 2, win1_4.index t a * S200x64.size a ≤ (i a).val ∧ (i a).val < win1_4.index t a * S200x64.size a + S200x64.size a := by
  show i ∈ ((View.whole main_v4_0).slice (win1_4.rect t)).set ↔ _
  rw [View.set_slice_whole, Rect.mem_set_unit]
  exact Iff.rfl

/-- The same for the second result array. -/
theorem mem_blk_copy (t : Fin cfg1.N) (i : S10000x10000.Idx) :
    i ∈ ((cfg1.win 5).blk t).view.set ↔ ∀ a : Fin 2, win1_5.index t a * S200x10000.size a ≤ (i a).val ∧ (i a).val < win1_5.index t a * S200x10000.size a + S200x10000.size a := by
  show i ∈ ((View.whole main_v4_1).slice (win1_5.rect t)).set ↔ _
  rw [View.set_slice_whole, Rect.mem_set_unit]
  exact Iff.rfl

/-- Row `r` lies in block `r / 200`: the blocks cover the first result array. -/
theorem cover_layer (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  obtain ⟨t, ht⟩ : ∃ t : Fin cfg1.N, t.val = (i 0).val / 200 :=
    ⟨⟨(i 0).val / 200, lt_of_lt_of_eq (by omega : (i 0).val / 200 < 50) N_1.symm⟩, rfl⟩
  obtain ⟨-, -, -, -, -, -, -, -, e8, e9, -⟩ := idx_facts t
  refine ⟨t, flush1_4 t, ?_⟩
  rw [mem_blk_layer]
  intro a
  match a with
  | ⟨0, _⟩ => show win1_4.index t (0 : Fin 2) * 200 ≤ (i 0).val ∧ (i 0).val < win1_4.index t (0 : Fin 2) * 200 + 200; omega
  | ⟨1, _⟩ => show win1_4.index t (1 : Fin 2) * 64 ≤ (i 1).val ∧ (i 1).val < win1_4.index t (1 : Fin 2) * 64 + 64; omega

/-- Row `r` lies in block `r / 200`: the blocks cover the second result array. -/
theorem cover_copy (i : S10000x10000.Idx) : ∃ t : Fin cfg1.N, (cfg1.win 5).flush t = true ∧ i ∈ ((cfg1.win 5).blk t).view.set := by
  have hi0 : (i 0).val < 10000 := (i 0).isLt
  have hi1 : (i 1).val < 10000 := (i 1).isLt
  obtain ⟨t, ht⟩ : ∃ t : Fin cfg1.N, t.val = (i 0).val / 200 :=
    ⟨⟨(i 0).val / 200, lt_of_lt_of_eq (by omega : (i 0).val / 200 < 50) N_1.symm⟩, rfl⟩
  obtain ⟨-, -, -, -, -, -, -, -, -, -, e10, e11⟩ := idx_facts t
  refine ⟨t, flush1_5 t, ?_⟩
  rw [mem_blk_copy]
  intro a
  match a with
  | ⟨0, _⟩ => show win1_5.index t (0 : Fin 2) * 200 ≤ (i 0).val ∧ (i 0).val < win1_5.index t (0 : Fin 2) * 200 + 200; omega
  | ⟨1, _⟩ => show win1_5.index t (1 : Fin 2) * 10000 ≤ (i 1).val ∧ (i 1).val < win1_5.index t (1 : Fin 2) * 10000 + 10000; omega

/-- After the launch the first result array holds the first hidden layer of the adjacency, support, bias and weight
    matrix, as the launch found them. -/
theorem arr4 (c : Dev nD) : (dat1 V c).arrAt 4 cfg1.N
    = Cert.Gcn.layer (V c main_arg1) (V c main_v1) (Cert.Gcn.rowvec (V c main_v2)) (V c main_v3) :=
  (dat1 V c).arrAt_eq_of_cover 4 _ (fun t _ => flushed_layer V c t) cover_layer

/-- After the launch the second result array holds the adjacency matrix, as the launch found it. -/
theorem arr5 (c : Dev nD) : (dat1 V c).arrAt 5 cfg1.N = (V c main_arg1 : S10000x10000.Idx → EReal) :=
  (dat1 V c).arrAt_eq_of_cover 5 _ (fun t _ => flushed_copy V c t) cover_copy

end Cert.KernelIdeal.Region1
-- ==== Proof.Region2.lean ====
/-
  The third launch: the second hidden layer, handing on the support of the output layer.

  The launch runs over fifty grid points; point `t` is handed rows `200·t … 200·t + 199` of the adjacency matrix and,
  whole, the support, the bias kept as a matrix of one row, and the next weight matrix; it writes back
  `max(A·S + b, 0)·W` of what it was handed as rows `200·t …` of the result. A row of that expression depends on one
  row of the adjacency only, so what point `t` writes back is that block of rows of the layer of the whole matrices;
  the fifty blocks cover every row, so the result array ends holding the layer.
-/
import proofs.«151030_g5583457484891_cont_sun_c4_296_4_alg».proof.Proof.Gen.KernelIdeal.Frame
import proofs.«151030_g5583457484891_cont_sun_c4_296_4_alg».proof.Proof.Payloads
import Idealize.ShloMosaic.Lib.Pipeline.Value
set_option maxRecDepth 16384
open scoped BigOperators
noncomputable section
namespace Cert.KernelIdeal.Region2
open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The zero offset, as the constant function. -/
theorem hz : (![0, 0] : Fin 2 → Nat) = fun _ => 0 := funext fun a => by fin_cases a <;> rfl

/-- The five index maps over the grid: the adjacency and result windows move down one block of rows per point, the
    support, bias and weight windows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- A grid point is one of fifty. -/
theorem tlt (t : Fin cfg2.N) : t.val < 50 := lt_of_lt_of_eq t.isLt N_2

/-- The block of adjacency rows at point `t` is rows `200·t …` of the adjacency matrix. -/
theorem blk_rows (c : Dev nD) (t : Fin cfg2.N) :
    (iblk2 V c 0 t : S200x10000.Idx → EReal) = Cert.Gcn.rows (Cert.Gcn.blockRow t.val (tlt t)) (V c main_v4_1) := by
  obtain ⟨e0, e1, e2, e3, e4, e5, e6, e7, e8, e9⟩ := idx_facts t
  funext y
  show V c main_v4_1 (((cfg2.win 0).blk t).view.emb y) = V c main_v4_1 (ix2 (Cert.Gcn.blockRow t.val (tlt t) (y 0)) (y 1))
  refine congrArg (V c main_v4_1) ?_
  funext a; apply Fin.ext
  match a with
  | ⟨0, _⟩ => show win2_0.index t (0 : Fin 2) * 200 + 1 * (y 0).val = t.val * 200 + (y 0).val; omega
  | ⟨1, _⟩ => show win2_0.index t (1 : Fin 2) * 10000 + 1 * (y 1).val = (y 1).val; omega

/-- The support window's block is the whole support at every point. -/
theorem blk_support (c : Dev nD) (t : Fin cfg2.N) :
    (iblk2 V c 1 t : S10000x64.Idx → EReal) = V c main_v5 := by
  obtain ⟨e0, e1, e2, e3, e4, e5, e6, e7, e8, e9⟩ := idx_facts t
  funext y
  show V c main_v5 (((cfg2.win 1).blk t).view.emb y) = V c main_v5 y
  refine congrArg (V c main_v5) ?_
  funext a; apply Fin.ext
  match a with
  | ⟨0, _⟩ => show win2_1.index t (0 : Fin 2) * 10000 + 1 * (y 0).val = (y 0).val; omega
  | ⟨1, _⟩ => show win2_1.index t (1 : Fin 2) * 64 + 1 * (y 1).val = (y 1).val; omega

/-- The bias window's block is the whole one-row bias matrix at every point. -/
theorem blk_bias (c : Dev nD) (t : Fin cfg2.N) :
    (iblk2 V c 2 t : S1x64.Idx → EReal) = V c main_v6 := by
  obtain ⟨e0, e1, e2, e3, e4, e5, e6, e7, e8, e9⟩ := idx_facts t
  funext y
  show V c main_v6 (((cfg2.win 2).blk t).view.emb y) = V c main_v6 y
  refine congrArg (V c main_v6) ?_
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- The weight window's block is the whole weight matrix at every point. -/
theorem blk_weight (c : Dev nD) (t : Fin cfg2.N) :
    (iblk2 V c 3 t : S64x16.Idx → EReal) = V c main_v7 := by
  obtain ⟨e0, e1, e2, e3, e4, e5, e6, e7, e8, e9⟩ := idx_facts t
  funext y
  show V c main_v7 (((cfg2.win 3).blk t).view.emb y) = V c main_v7 y
  refine congrArg (V c main_v7) ?_
  funext a; apply Fin.ext
  match a with
  | ⟨0, _⟩ => show win2_3.index t (0 : Fin 2) * 64 + 1 * (y 0).val = (y 0).val; omega
  | ⟨1, _⟩ => show win2_3.index t (1 : Fin 2) * 16 + 1 * (y 1).val = (y 1).val; omega

/-- The output block's entry `(p, q)` is entry `(200·t + p, q)` of the output array. -/
theorem emb_out (t : Fin cfg2.N) (p : Fin 200) (q : Fin 16) :
    (((cfg2.win 4).blk t).view.emb (ix2 p q) : S10000x16.Idx) = ix2 (Cert.Gcn.blockRow t.val (tlt t) p) q := by
  obtain ⟨e0, e1, e2, e3, e4, e5, e6, e7, e8, e9⟩ := idx_facts t
  funext a; apply Fin.ext
  match a with
  | ⟨0, _⟩ => show win2_4.index t (0 : Fin 2) * 200 + 1 * p.val = t.val * 200 + p.val; omega
  | ⟨1, _⟩ => show win2_4.index t (1 : Fin 2) * 16 + 1 * q.val = q.val; omega

/-- What point `t` writes back is block `t` of the layer of the whole matrices. -/
theorem flushed_eq (c : Dev nD) (t : Fin cfg2.N) :
    (dat2 V c).flushed 4 t = ((cfg2.win 4).blk t).view.read (Elt Ideal)
      (Cert.Gcn.layer (V c main_v4_1) (V c main_v5) (Cert.Gcn.rowvec (V c main_v6)) (V c main_v7)) := by
  show (cfg2.win 4).cut (grid2.coords t) ((dat2 V c).after 4 t) = _
  rw [after2_4]
  unfold out2_4
  rw [View.canon_unit_zero hz]
  simp only [View.ld_unit_zero (S := S200x10000) hz, View.ld_unit_zero (S := S10000x64) hz,
    View.ld_unit_zero (S := S1x64) hz, View.ld_unit_zero (S := S64x16) hz]
  rw [Cert.KernelIdeal.Pay.pay2]
  funext j
  obtain ⟨p, q, rfl⟩ : ∃ (p : Fin 200) (q : Fin 16), j = ix2 p q := ⟨j 0, j 1, eq_ix2 j⟩
  show Cert.Gcn.layer (iblk2 V c 0 t : S200x10000.Idx → EReal) (iblk2 V c 1 t : S10000x64.Idx → EReal)
        (Cert.Gcn.rowvec (iblk2 V c 2 t : S1x64.Idx → EReal)) (iblk2 V c 3 t : S64x16.Idx → EReal) (ix2 p q)
      = Cert.Gcn.layer (V c main_v4_1) (V c main_v5) (Cert.Gcn.rowvec (V c main_v6)) (V c main_v7)
          (((cfg2.win 4).blk t).view.emb (ix2 p q))
  rw [emb_out, blk_rows, blk_support, blk_bias, blk_weight]
  exact Cert.Gcn.layer_rows _ _ _ _ _ p q

/-- An index of the result array lies in point `t`'s block iff each coordinate lies in the block's range on its axis. -/
theorem mem_blk (t : Fin cfg2.N) (i : S10000x16.Idx) :
    i ∈ ((cfg2.win 4).blk t).view.set ↔ ∀ a : Fin 2, win2_4.index t a * S200x16.size a ≤ (i a).val ∧ (i a).val < win2_4.index t a * S200x16.size a + S200x16.size a := by
  show i ∈ ((View.whole main_v8).slice (win2_4.rect t)).set ↔ _
  rw [View.set_slice_whole, Rect.mem_set_unit]
  exact Iff.rfl

/-- Row `r` lies in block `r / 200`: the blocks cover the result array. -/
theorem cover (i : S10000x16.Idx) : ∃ t : Fin cfg2.N, (cfg2.win 4).flush t = true ∧ i ∈ ((cfg2.win 4).blk t).view.set := by
  have hi0 : (i 0).val < 10000 := (i 0).isLt
  have hi1 : (i 1).val < 16 := (i 1).isLt
  obtain ⟨t, ht⟩ : ∃ t : Fin cfg2.N, t.val = (i 0).val / 200 :=
    ⟨⟨(i 0).val / 200, lt_of_lt_of_eq (by omega : (i 0).val / 200 < 50) N_2.symm⟩, rfl⟩
  obtain ⟨e0, e1, e2, e3, e4, e5, e6, e7, e8, e9⟩ := idx_facts t
  refine ⟨t, flush2_4 t, ?_⟩
  rw [mem_blk]
  intro a
  match a with
  | ⟨0, _⟩ => show win2_4.index t (0 : Fin 2) * 200 ≤ (i 0).val ∧ (i 0).val < win2_4.index t (0 : Fin 2) * 200 + 200; omega
  | ⟨1, _⟩ => show win2_4.index t (1 : Fin 2) * 16 ≤ (i 1).val ∧ (i 1).val < win2_4.index t (1 : Fin 2) * 16 + 16; omega

/-- After the launch the result array holds the second hidden layer of the adjacency, the support, the bias and the
    weight matrix, as the launch found them. -/
theorem arr (c : Dev nD) : (dat2 V c).arrAt 4 cfg2.N = Cert.Gcn.layer (V c main_v4_1) (V c main_v5) (Cert.Gcn.rowvec (V c main_v6)) (V c main_v7) :=
  (dat2 V c).arrAt_eq_of_cover 4 _ (fun t _ => flushed_eq V c t) cover

end Cert.KernelIdeal.Region2
-- ==== Proof.Region3.lean ====
/-
  The fourth launch: the output layer.

  The launch runs over fifty grid points; point `t` is handed rows `200·t … 200·t + 199` of the adjacency matrix and,
  whole, the support and the bias kept as a matrix of one row; it writes back the logistic function of `A·S + b` of
  what it was handed as rows `200·t …` of the result. A row of that expression depends on one row of the adjacency
  only, so what point `t` writes back is that block of rows of the output layer of the whole matrices; the fifty
  blocks cover every row, so the result array ends holding the output layer.
-/
import proofs.«151030_g5583457484891_cont_sun_c4_296_4_alg».proof.Proof.Gen.KernelIdeal.Frame
import proofs.«151030_g5583457484891_cont_sun_c4_296_4_alg».proof.Proof.Payloads
import Idealize.ShloMosaic.Lib.Pipeline.Value
set_option maxRecDepth 16384
open scoped BigOperators
noncomputable section
namespace Cert.KernelIdeal.Region3
open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The zero offset, as the constant function. -/
theorem hz : (![0, 0] : Fin 2 → Nat) = fun _ => 0 := funext fun a => by fin_cases a <;> rfl

/-- The four index maps over the grid: the adjacency and result windows move down one block of rows per point, the
    support and bias windows stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A grid point is one of fifty. -/
theorem tlt (t : Fin cfg3.N) : t.val < 50 := lt_of_lt_of_eq t.isLt N_3

/-- The block of adjacency rows at point `t` is rows `200·t …` of the adjacency matrix. -/
theorem blk_rows (c : Dev nD) (t : Fin cfg3.N) :
    (iblk3 V c 0 t : S200x10000.Idx → EReal) = Cert.Gcn.rows (Cert.Gcn.blockRow t.val (tlt t)) (V c main_v4_1) := by
  obtain ⟨e0, e1, e2, e3, e4, e5, e6, e7⟩ := idx_facts t
  funext y
  show V c main_v4_1 (((cfg3.win 0).blk t).view.emb y) = V c main_v4_1 (ix2 (Cert.Gcn.blockRow t.val (tlt t) (y 0)) (y 1))
  refine congrArg (V c main_v4_1) ?_
  funext a; apply Fin.ext
  match a with
  | ⟨0, _⟩ => show win3_0.index t (0 : Fin 2) * 200 + 1 * (y 0).val = t.val * 200 + (y 0).val; omega
  | ⟨1, _⟩ => show win3_0.index t (1 : Fin 2) * 10000 + 1 * (y 1).val = (y 1).val; omega

/-- The support window's block is the whole support at every point. -/
theorem blk_support (c : Dev nD) (t : Fin cfg3.N) :
    (iblk3 V c 1 t : S10000x16.Idx → EReal) = V c main_v9 := by
  obtain ⟨e0, e1, e2, e3, e4, e5, e6, e7⟩ := idx_facts t
  funext y
  show V c main_v9 (((cfg3.win 1).blk t).view.emb y) = V c main_v9 y
  refine congrArg (V c main_v9) ?_
  funext a; apply Fin.ext
  match a with
  | ⟨0, _⟩ => show win3_1.index t (0 : Fin 2) * 10000 + 1 * (y 0).val = (y 0).val; omega
  | ⟨1, _⟩ => show win3_1.index t (1 : Fin 2) * 16 + 1 * (y 1).val = (y 1).val; omega

/-- The bias window's block is the whole one-row bias matrix at every point. -/
theorem blk_bias (c : Dev nD) (t : Fin cfg3.N) :
    (iblk3 V c 2 t : S1x16.Idx → EReal) = V c main_v10 := by
  obtain ⟨e0, e1, e2, e3, e4, e5, e6, e7⟩ := idx_facts t
  funext y
  show V c main_v10 (((cfg3.win 2).blk t).view.emb y) = V c main_v10 y
  refine congrArg (V c main_v10) ?_
  funext a; apply Fin.ext
  match a with
  | ⟨0, _⟩ => show win3_2.index t (0 : Fin 2) * 1 + 1 * (y 0).val = (y 0).val; omega
  | ⟨1, _⟩ => show win3_2.index t (1 : Fin 2) * 16 + 1 * (y 1).val = (y 1).val; omega

/-- The output block's entry `(p, q)` is entry `(200·t + p, q)` of the output array. -/
theorem emb_out (t : Fin cfg3.N) (p : Fin 200) (q : Fin 16) :
    (((cfg3.win 3).blk t).view.emb (ix2 p q) : S10000x16.Idx) = ix2 (Cert.Gcn.blockRow t.val (tlt t) p) q := by
  obtain ⟨e0, e1, e2, e3, e4, e5, e6, e7⟩ := idx_facts t
  funext a; apply Fin.ext
  match a with
  | ⟨0, _⟩ => show win3_3.index t (0 : Fin 2) * 200 + 1 * p.val = t.val * 200 + p.val; omega
  | ⟨1, _⟩ => show win3_3.index t (1 : Fin 2) * 16 + 1 * q.val = q.val; omega

/-- What point `t` writes back is block `t` of the output layer of the whole matrices. -/
theorem flushed_eq (c : Dev nD) (t : Fin cfg3.N) :
    (dat3 V c).flushed 3 t = ((cfg3.win 3).blk t).view.read (Elt Ideal)
      (Cert.Gcn.outp (V c main_v4_1) (V c main_v9) (Cert.Gcn.rowvec (V c main_v10))) := by
  show (cfg3.win 3).cut (grid3.coords t) ((dat3 V c).after 3 t) = _
  rw [after3_3]
  unfold out3_3
  rw [View.canon_unit_zero hz]
  simp only [View.ld_unit_zero (S := S200x10000) hz, View.ld_unit_zero (S := S10000x16) hz,
    View.ld_unit_zero (S := S1x16) hz]
  rw [Cert.KernelIdeal.Pay.pay3]
  funext j
  obtain ⟨p, q, rfl⟩ : ∃ (p : Fin 200) (q : Fin 16), j = ix2 p q := ⟨j 0, j 1, eq_ix2 j⟩
  show Cert.Gcn.outp (iblk3 V c 0 t : S200x10000.Idx → EReal) (iblk3 V c 1 t : S10000x16.Idx → EReal)
        (Cert.Gcn.rowvec (iblk3 V c 2 t : S1x16.Idx → EReal)) (ix2 p q)
      = Cert.Gcn.outp (V c main_v4_1) (V c main_v9) (Cert.Gcn.rowvec (V c main_v10))
          (((cfg3.win 3).blk t).view.emb (ix2 p q))
  rw [emb_out, blk_rows, blk_support, blk_bias]
  exact Cert.Gcn.outp_rows _ _ _ _ p q

/-- An index of the result array lies in point `t`'s block iff each coordinate lies in the block's range on its axis. -/
theorem mem_blk (t : Fin cfg3.N) (i : S10000x16.Idx) :
    i ∈ ((cfg3.win 3).blk t).view.set ↔ ∀ a : Fin 2, win3_3.index t a * S200x16.size a ≤ (i a).val ∧ (i a).val < win3_3.index t a * S200x16.size a + S200x16.size a := by
  show i ∈ ((View.whole main_v11).slice (win3_3.rect t)).set ↔ _
  rw [View.set_slice_whole, Rect.mem_set_unit]
  exact Iff.rfl

/-- Row `r` lies in block `r / 200`: the blocks cover the result array. -/
theorem cover (i : S10000x16.Idx) : ∃ t : Fin cfg3.N, (cfg3.win 3).flush t = true ∧ i ∈ ((cfg3.win 3).blk t).view.set := by
  have hi0 : (i 0).val < 10000 := (i 0).isLt
  have hi1 : (i 1).val < 16 := (i 1).isLt
  obtain ⟨t, ht⟩ : ∃ t : Fin cfg3.N, t.val = (i 0).val / 200 :=
    ⟨⟨(i 0).val / 200, lt_of_lt_of_eq (by omega : (i 0).val / 200 < 50) N_3.symm⟩, rfl⟩
  obtain ⟨e0, e1, e2, e3, e4, e5, e6, e7⟩ := idx_facts t
  refine ⟨t, flush3_3 t, ?_⟩
  rw [mem_blk]
  intro a
  match a with
  | ⟨0, _⟩ => show win3_3.index t (0 : Fin 2) * 200 ≤ (i 0).val ∧ (i 0).val < win3_3.index t (0 : Fin 2) * 200 + 200; omega
  | ⟨1, _⟩ => show win3_3.index t (1 : Fin 2) * 16 ≤ (i 1).val ∧ (i 1).val < win3_3.index t (1 : Fin 2) * 16 + 16; omega

/-- After the launch the result array holds the output layer of the adjacency, the support and the bias, as the
    launch found them. -/
theorem arr (c : Dev nD) : (dat3 V c).arrAt 3 cfg3.N = Cert.Gcn.outp (V c main_v4_1) (V c main_v9) (Cert.Gcn.rowvec (V c main_v10)) :=
  (dat3 V c).arrAt_eq_of_cover 3 _ (fun t _ => flushed_eq V c t) cover

end Cert.KernelIdeal.Region3
-- ==== Proof.KernelValue.lean ====
/-
  What the result's buffer holds at the last boundary.

  Between the four launches the host changes a support's float format (the identity at the ideal values), lays each
  bias vector out as a matrix with one row, and changes the format of the next weight matrix. Following the buffers
  boundary by boundary: the first launch leaves `x·W₁`; the second leaves the first hidden layer's hand-on
  `max(A·(x·W₁) + b₁, 0)·W₂` and a copy of the adjacency `A`; the third, reading that copy, leaves
  `max(A·s₂ + b₂, 0)·W₃`; the fourth leaves the logistic function of `A·s₃ + b₃`. No segment writes an argument, so
  every argument a launch reads is the launch memory's. Composed, the result is the network of the eight arguments.
-/
import proofs.«151030_g5583457484891_cont_sun_c4_296_4_alg».proof.Proof.Gen.KernelIdeal.Frame
import proofs.«151030_g5583457484891_cont_sun_c4_296_4_alg».proof.Proof.Region0
import proofs.«151030_g5583457484891_cont_sun_c4_296_4_alg».proof.Proof.Region1
import proofs.«151030_g5583457484891_cont_sun_c4_296_4_alg».proof.Proof.Region2
import proofs.«151030_g5583457484891_cont_sun_c4_296_4_alg».proof.Proof.Region3
import Idealize.ShloMosaic.Lib.ValueLayout
import Idealize.ShloMosaic.Lib.StableHlo.Run
set_option maxRecDepth 16384
open scoped BigOperators
noncomputable section

namespace Cert.KernelIdeal.Value
open Idealize.ShloMosaic Idealize.ShloMosaic.TcCoe Idealize.ShloMosaic.ValueIdx Idealize.SL.Sem Idealize.ShloMosaic.StableHlo
open Cert.KernelIdeal Cert.KernelIdeal.Gen

/-- A vector laid out as a matrix with one row, read back as the vector of that row's columns, is the vector. -/
theorem rowvec_reshape {N : Nat} (x : (⟨1, ![N]⟩ : Shape).Idx → EReal) (h : (⟨1, ![N]⟩ : Shape).ShapeCasts ⟨2, ![1, N]⟩) :
    Cert.Gcn.rowvec (shapeCast ⟨2, ![1, N]⟩ x h) = x := by
  funext j
  obtain ⟨q, rfl⟩ : ∃ q : Fin N, j = ix1 q := ⟨j 0, eq_ix1 j⟩
  exact shapeCast_a_1a_apply x h 0 q

variable (m : (ℓ : Loc nD τ sig) → Buf (Elt Ideal) ℓ) (ρ : Dev nD → PrngReg) (c : Dev nD)

/-! ## After the first launch -/

/-- The first launch leaves the product of the features and the first weight matrix. -/
theorem W1_v0 : (W1 m ρ c (Proc.devRef .tc main_v0) : S10000x64.Idx → EReal)
    = Cert.Gcn.mm (m ((c : Thread nD τ).loc main_arg0)) (m ((c : Thread nD τ).loc main_arg2)) :=
  (W1_arr m ρ c 2).trans (Cert.KernelIdeal.Region0.arr (V0 m ρ) c)

/-- The first launch writes no argument. -/
theorem W1_arg1 : W1 m ρ c (Proc.devRef .tc main_arg1) = m ((c : Thread nD τ).loc main_arg1) :=
  W1_of_ne m ρ c main_arg1 (by decide)
theorem W1_arg3 : W1 m ρ c (Proc.devRef .tc main_arg3) = m ((c : Thread nD τ).loc main_arg3) :=
  W1_of_ne m ρ c main_arg3 (by decide)
theorem W1_arg4 : W1 m ρ c (Proc.devRef .tc main_arg4) = m ((c : Thread nD τ).loc main_arg4) :=
  W1_of_ne m ρ c main_arg4 (by decide)

/-- The first support in the narrower format is the first support. -/
theorem V2_v1 : (V2 m ρ c main_v1 : S10000x64.Idx → EReal)
    = Cert.Gcn.mm (m ((c : Thread nD τ).loc main_arg0)) (m ((c : Thread nD τ).loc main_arg2)) := by
  show StableHlo.after hostOps1 (W1 m ρ c) (Proc.devRef .tc main_v1) = _
  after_results
  exact W1_v0 m ρ c

/-- The first bias, laid out as one row and read back, is the first bias. -/
theorem V2_v2 : Cert.Gcn.rowvec (V2 m ρ c main_v2 : S1x64.Idx → EReal) = m ((c : Thread nD τ).loc main_arg3) := by
  show Cert.Gcn.rowvec (StableHlo.after hostOps1 (W1 m ρ c) (Proc.devRef .tc main_v2)) = _
  after_results
  rw [W1_arg3]
  exact rowvec_reshape _ _

/-- The second weight matrix in the narrower format is the second weight matrix. -/
theorem V2_v3 : (V2 m ρ c main_v3 : S64x64.Idx → EReal) = m ((c : Thread nD τ).loc main_arg4) := by
  show StableHlo.after hostOps1 (W1 m ρ c) (Proc.devRef .tc main_v3) = _
  after_results
  exact W1_arg4 m ρ c

/-- The adjacency the second launch reads is the launch memory's. -/
theorem V2_arg1 : V2 m ρ c main_arg1 = m ((c : Thread nD τ).loc main_arg1) := by
  show StableHlo.after hostOps1 (W1 m ρ c) (Proc.devRef .tc main_arg1) = _
  after_results
  exact W1_arg1 m ρ c

/-! ## After the second launch -/

/-- The second launch leaves the first hidden layer's hand-on. -/
theorem W3_v4_0 : (W3 m ρ c (Proc.devRef .tc main_v4_0) : S10000x64.Idx → EReal)
    = Cert.Gcn.layer (m ((c : Thread nD τ).loc main_arg1)) (Cert.Gcn.mm (m ((c : Thread nD τ).loc main_arg0)) (m ((c : Thread nD τ).loc main_arg2)))
        (m ((c : Thread nD τ).loc main_arg3)) (m ((c : Thread nD τ).loc main_arg4)) := by
  refine (W3_arr m ρ c 4).trans ((Cert.KernelIdeal.Region1.arr4 (V2 m ρ) c).trans ?_)
  rw [V2_arg1, V2_v1, V2_v2, V2_v3]

/-- The second launch's copy of the adjacency is the adjacency. -/
theorem W3_v4_1 : (W3 m ρ c (Proc.devRef .tc main_v4_1) : S10000x10000.Idx → EReal) = m ((c : Thread nD τ).loc main_arg1) :=
  (W3_arr m ρ c 5).trans ((Cert.KernelIdeal.Region1.arr5 (V2 m ρ) c).trans (V2_arg1 m ρ c))

/-- Neither the first two launches nor the host stretch between them write the later arguments. -/
theorem W3_arg5 : W3 m ρ c (Proc.devRef .tc main_arg5) = m ((c : Thread nD τ).loc main_arg5) := by
  refine (W3_of_ne m ρ c main_arg5 (by decide)).trans ?_
  show StableHlo.after hostOps1 (W1 m ρ c) (Proc.devRef .tc main_arg5) = _
  after_results
  exact W1_of_ne m ρ c main_arg5 (by decide)

theorem W3_arg6 : W3 m ρ c (Proc.devRef .tc main_arg6) = m ((c : Thread nD τ).loc main_arg6) := by
  refine (W3_of_ne m ρ c main_arg6 (by decide)).trans ?_
  show StableHlo.after hostOps1 (W1 m ρ c) (Proc.devRef .tc main_arg6) = _
  after_results
  exact W1_of_ne m ρ c main_arg6 (by decide)

theorem W3_arg7 : W3 m ρ c (Proc.devRef .tc main_arg7) = m ((c : Thread nD τ).loc main_arg7) := by
  refine (W3_of_ne m ρ c main_arg7 (by decide)).trans ?_
  show StableHlo.after hostOps1 (W1 m ρ c) (Proc.devRef .tc main_arg7) = _
  after_results
  exact W1_of_ne m ρ c main_arg7 (by decide)

/-- The third launch reads the copy of the adjacency, the first hand-on in the narrower format, the second bias as
    one row and the third weight matrix in the narrower format. -/
theorem V4_v4_1 : (V4 m ρ c main_v4_1 : S10000x10000.Idx → EReal) = m ((c : Thread nD τ).loc main_arg1) := by
  show StableHlo.after hostOps2 (W3 m ρ c) (Proc.devRef .tc main_v4_1) = _
  after_results
  exact W3_v4_1 m ρ c

theorem V4_v5 : (V4 m ρ c main_v5 : S10000x64.Idx → EReal)
    = Cert.Gcn.layer (m ((c : Thread nD τ).loc main_arg1)) (Cert.Gcn.mm (m ((c : Thread nD τ).loc main_arg0)) (m ((c : Thread nD τ).loc main_arg2)))
        (m ((c : Thread nD τ).loc main_arg3)) (m ((c : Thread nD τ).loc main_arg4)) := by
  show StableHlo.after hostOps2 (W3 m ρ c) (Proc.devRef .tc main_v5) = _
  after_results
  exact W3_v4_0 m ρ c

theorem V4_v6 : Cert.Gcn.rowvec (V4 m ρ c main_v6 : S1x64.Idx → EReal) = m ((c : Thread nD τ).loc main_arg5) := by
  show Cert.Gcn.rowvec (StableHlo.after hostOps2 (W3 m ρ c) (Proc.devRef .tc main_v6)) = _
  after_results
  rw [W3_arg5]
  exact rowvec_reshape _ _

theorem V4_v7 : (V4 m ρ c main_v7 : S64x16.Idx → EReal) = m ((c : Thread nD τ).loc main_arg6) := by
  show StableHlo.after hostOps2 (W3 m ρ c) (Proc.devRef .tc main_v7) = _
  after_results
  exact W3_arg6 m ρ c

theorem V4_arg7 : V4 m ρ c main_arg7 = m ((c : Thread nD τ).loc main_arg7) := by
  show StableHlo.after hostOps2 (W3 m ρ c) (Proc.devRef .tc main_arg7) = _
  after_results
  exact W3_arg7 m ρ c

/-! ## After the third launch -/

/-- The third launch leaves the second hidden layer's hand-on. -/
theorem W5_v8 : (W5 m ρ c (Proc.devRef .tc main_v8) : S10000x16.Idx → EReal)
    = Cert.Gcn.layer (m ((c : Thread nD τ).loc main_arg1))
        (Cert.Gcn.layer (m ((c : Thread nD τ).loc main_arg1)) (Cert.Gcn.mm (m ((c : Thread nD τ).loc main_arg0)) (m ((c : Thread nD τ).loc main_arg2)))
          (m ((c : Thread nD τ).loc main_arg3)) (m ((c : Thread nD τ).loc main_arg4)))
        (m ((c : Thread nD τ).loc main_arg5)) (m ((c : Thread nD τ).loc main_arg6)) := by
  refine (W5_arr m ρ c 4).trans ((Cert.KernelIdeal.Region2.arr (V4 m ρ) c).trans ?_)
  rw [V4_v4_1, V4_v5, V4_v6, V4_v7]

/-- The third launch only reads the copy of the adjacency. -/
theorem W5_v4_1 : (W5 m ρ c (Proc.devRef .tc main_v4_1) : S10000x10000.Idx → EReal) = m ((c : Thread nD τ).loc main_arg1) :=
  (W5_arr m ρ c 0).trans (((dat2 (V4 m ρ) c).arrAt_in 0 rfl _).trans ((A_eq2 (V4 m ρ) c 0).trans (V4_v4_1 m ρ c)))

theorem W5_arg7 : W5 m ρ c (Proc.devRef .tc main_arg7) = m ((c : Thread nD τ).loc main_arg7) :=
  (W5_of_ne m ρ c main_arg7 (by decide)).trans (V4_arg7 m ρ c)

/-- The last launch reads the copy of the adjacency, the second hand-on in the narrower format and the third bias as
    one row. -/
theorem V6_v4_1 : (V6 m ρ c main_v4_1 : S10000x10000.Idx → EReal) = m ((c : Thread nD τ).loc main_arg1) := by
  show StableHlo.after hostOps3 (W5 m ρ c) (Proc.devRef .tc main_v4_1) = _
  after_results
  exact W5_v4_1 m ρ c

theorem V6_v9 : (V6 m ρ c main_v9 : S10000x16.Idx → EReal)
    = Cert.Gcn.layer (m ((c : Thread nD τ).loc main_arg1))
        (Cert.Gcn.layer (m ((c : Thread nD τ).loc main_arg1)) (Cert.Gcn.mm (m ((c : Thread nD τ).loc main_arg0)) (m ((c : Thread nD τ).loc main_arg2)))
          (m ((c : Thread nD τ).loc main_arg3)) (m ((c : Thread nD τ).loc main_arg4)))
        (m ((c : Thread nD τ).loc main_arg5)) (m ((c : Thread nD τ).loc main_arg6)) := by
  show StableHlo.after hostOps3 (W5 m ρ c) (Proc.devRef .tc main_v9) = _
  after_results
  exact W5_v8 m ρ c

theorem V6_v10 : Cert.Gcn.rowvec (V6 m ρ c main_v10 : S1x16.Idx → EReal) = m ((c : Thread nD τ).loc main_arg7) := by
  show Cert.Gcn.rowvec (StableHlo.after hostOps3 (W5 m ρ c) (Proc.devRef .tc main_v10)) = _
  after_results
  rw [W5_arg7]
  exact rowvec_reshape _ _

/-! ## After the last launch -/

/-- The result's buffer at the last boundary holds the network of the launch contents of the eight arguments. -/
theorem W7_v11 : (W7 m ρ c (Proc.devRef .tc main_v11) : S10000x16.Idx → EReal)
    = Cert.Gcn.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W7_arr m ρ c 3).trans ((Cert.KernelIdeal.Region3.arr (V6 m ρ) c).trans ?_)
  rw [V6_v4_1, V6_v9, V6_v10]
  rfl

end Cert.KernelIdeal.Value
-- ==== Proof.RefValue.lean ====
/-
  The reference program computes the network.

  Read one operation at a time, the reference forms `x·W₁`, multiplies by the adjacency, adds the bias of the column,
  clamps at the zero word from below and multiplies by the next weight matrix, twice, and ends with
  `1 / (1 + exp(−(A·S + b)))`, which on the extended reals is the logistic function of `A·S + b`.

  The proof goes one layer at a time, each stage as an equality of whole matrices. A contraction at `(p, q)` is the sum
  over `k` of the left operand at `(p, k)` times the right one at `(k, q)`; a bias of `N` entries, made a matrix of one
  row and then repeated down the rows, has at `(p, q)` its entry `q`; the clamp and the sum act entry by entry. So the
  first contraction is `x·W₁`, every later pair of contractions with the clamp between them is one hidden layer of
  the specification, and the last four entrywise operations are the logistic function, the word `0x3F800000` being `1`.
  The zero word is the same term on both sides and is never evaluated; nothing here needs a value to be finite.
-/
import proofs.«151030_g5583457484891_cont_sun_c4_296_4_alg».proof.Proof.Gen.ReferenceIdeal.Read
import proofs.«151030_g5583457484891_cont_sun_c4_296_4_alg».proof.Proof.GcnSpec
import proofs.«151030_g5583457484891_cont_sun_c4_296_4_alg».proof.Proof.LibMatmul
import Idealize.ShloMosaic.Lib.ValueLayout
import Idealize.ShloMosaic.Lib.IdealHost
open scoped BigOperators
noncomputable section
namespace Cert.ReferenceIdeal.RefValue
open Idealize.ShloMosaic Idealize.ShloMosaic.ValueIdx Cert.ReferenceIdeal Cert.ReferenceIdeal.Read

/-! ## The index maps of the contractions and of the bias broadcasts, at an index given by its coordinates -/

theorem lidx0 (p : Fin 10000) (q : Fin 64) (k : Fin 128) : lidx_main_v0 (ix2 p q) k = ix2 p k :=
  funext fun a => Fin.ext (by match a with | ⟨0, _⟩ => rfl | ⟨1, _⟩ => rfl)
theorem ridx0 (p : Fin 10000) (q : Fin 64) (k : Fin 128) : ridx_main_v0 (ix2 p q) k = ix2 k q :=
  funext fun a => Fin.ext (by match a with | ⟨0, _⟩ => rfl | ⟨1, _⟩ => rfl)

theorem lidx1 (p : Fin 10000) (q : Fin 64) (k : Fin 10000) : lidx_main_v1 (ix2 p q) k = ix2 p k :=
  funext fun a => Fin.ext (by match a with | ⟨0, _⟩ => rfl | ⟨1, _⟩ => rfl)
theorem ridx1 (p : Fin 10000) (q : Fin 64) (k : Fin 10000) : ridx_main_v1 (ix2 p q) k = ix2 k q :=
  funext fun a => Fin.ext (by match a with | ⟨0, _⟩ => rfl | ⟨1, _⟩ => rfl)

theorem lidx6 (p : Fin 10000) (q : Fin 64) (k : Fin 64) : lidx_main_v6 (ix2 p q) k = ix2 p k :=
  funext fun a => Fin.ext (by match a with | ⟨0, _⟩ => rfl | ⟨1, _⟩ => rfl)
theorem ridx6 (p : Fin 10000) (q : Fin 64) (k : Fin 64) : ridx_main_v6 (ix2 p q) k = ix2 k q :=
  funext fun a => Fin.ext (by match a with | ⟨0, _⟩ => rfl | ⟨1, _⟩ => rfl)

theorem lidx7 (p : Fin 10000) (q : Fin 64) (k : Fin 10000) : lidx_main_v7 (ix2 p q) k = ix2 p k :=
  funext fun a => Fin.ext (by match a with | ⟨0, _⟩ => rfl | ⟨1, _⟩ => rfl)
theorem ridx7 (p : Fin 10000) (q : Fin 64) (k : Fin 10000) : ridx_main_v7 (ix2 p q) k = ix2 k q :=
  funext fun a => Fin.ext (by match a with | ⟨0, _⟩ => rfl | ⟨1, _⟩ => rfl)

theorem lidx12 (p : Fin 10000) (q : Fin 16) (k : Fin 64) : lidx_main_v12 (ix2 p q) k = ix2 p k :=
  funext fun a => Fin.ext (by match a with | ⟨0, _⟩ => rfl | ⟨1, _⟩ => rfl)
theorem ridx12 (p : Fin 10000) (q : Fin 16) (k : Fin 64) : ridx_main_v12 (ix2 p q) k = ix2 k q :=
  funext fun a => Fin.ext (by match a with | ⟨0, _⟩ => rfl | ⟨1, _⟩ => rfl)

theorem lidx13 (p : Fin 10000) (q : Fin 16) (k : Fin 10000) : lidx_main_v13 (ix2 p q) k = ix2 p k :=
  funext fun a => Fin.ext (by match a with | ⟨0, _⟩ => rfl | ⟨1, _⟩ => rfl)
theorem ridx13 (p : Fin 10000) (q : Fin 16) (k : Fin 10000) : ridx_main_v13 (ix2 p q) k = ix2 k q :=
  funext fun a => Fin.ext (by match a with | ⟨0, _⟩ => rfl | ⟨1, _⟩ => rfl)

theorem idx3 (p : Fin 10000) (q : Fin 64) : idx_main_v3 (ix2 p q) = ix2 (0 : Fin 1) q :=
  funext fun a => Fin.ext (by match a with | ⟨0, _⟩ => rfl | ⟨1, _⟩ => rfl)
theorem idx2 (q : Fin 64) : idx_main_v2 (ix2 (0 : Fin 1) q) = ix1 q :=
  funext fun a => Fin.ext (by match a with | ⟨0, _⟩ => rfl)

theorem idx9 (p : Fin 10000) (q : Fin 64) : idx_main_v9 (ix2 p q) = ix2 (0 : Fin 1) q :=
  funext fun a => Fin.ext (by match a with | ⟨0, _⟩ => rfl | ⟨1, _⟩ => rfl)
theorem idx8 (q : Fin 64) : idx_main_v8 (ix2 (0 : Fin 1) q) = ix1 q :=
  funext fun a => Fin.ext (by match a with | ⟨0, _⟩ => rfl)

theorem idx15 (p : Fin 10000) (q : Fin 16) : idx_main_v15 (ix2 p q) = ix2 (0 : Fin 1) q :=
  funext fun a => Fin.ext (by match a with | ⟨0, _⟩ => rfl | ⟨1, _⟩ => rfl)
theorem idx14 (q : Fin 16) : idx_main_v14 (ix2 (0 : Fin 1) q) = ix1 q :=
  funext fun a => Fin.ext (by match a with | ⟨0, _⟩ => rfl)

section Stages
variable (x0 : (⟨S10000x128, .f32⟩ : BufTy).Contents (Elt Ideal)) (x1 : (⟨S10000x10000, .f32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x16, .f32⟩ : BufTy).Contents (Elt Ideal)) (x7 : (⟨S16, .f32⟩ : BufTy).Contents (Elt Ideal))

/-! ## The first support -/

/-- The first contraction is `x·W₁`. -/
theorem v0_eq : val_main_v0 (F := Ideal) x0 x2 = Cert.Gcn.mm x0 x2 := by
  funext i
  obtain ⟨p, q, rfl⟩ : ∃ (p : Fin 10000) (q : Fin 64), i = ix2 p q := ⟨i 0, i 1, eq_ix2 i⟩
  rw [val_main_v0_apply, Cert.Gcn.mm_apply]
  refine Finset.sum_congr rfl fun k _ => ?_
  rw [lidx0, ridx0]

/-! ## The first hidden layer -/

/-- The product of the adjacency with the first support. -/
theorem v1_eq : val_main_v1 (F := Ideal) x0 x1 x2 = Cert.Gcn.mm x1 (Cert.Gcn.mm x0 x2) := by
  funext i
  obtain ⟨p, q, rfl⟩ : ∃ (p : Fin 10000) (q : Fin 64), i = ix2 p q := ⟨i 0, i 1, eq_ix2 i⟩
  rw [val_main_v1_apply, v0_eq, Cert.Gcn.mm_apply]
  refine Finset.sum_congr rfl fun k _ => ?_
  rw [lidx1, ridx1]

/-- The first bias, repeated down the rows, has at `(p, q)` its entry `q`. -/
theorem v3_at (p : Fin 10000) (q : Fin 64) : val_main_v3 (F := Ideal) x3 (ix2 p q) = x3 (ix1 q) := by
  rw [val_main_v3_apply, idx3, val_main_v2_apply, idx2]

/-- The clamped aggregation of the first layer. -/
theorem v5_at (p : Fin 10000) (q : Fin 64) :
    val_main_v5 (F := Ideal) x0 x1 x2 x3 (ix2 p q)
      = max (Cert.Gcn.agg x1 (Cert.Gcn.mm x0 x2) x3 (ix2 p q)) Cert.Gcn.zero32 := by
  rw [val_main_v5_apply, val_main_v4_apply, val_main_call0_v0_apply, val_main_call0_cst_apply, v1_eq, v3_at]
  rfl

/-- The first hidden layer hands on the second support. -/
theorem v6_eq : val_main_v6 (F := Ideal) x0 x1 x2 x3 x4 = Cert.Gcn.layer x1 (Cert.Gcn.mm x0 x2) x3 x4 := by
  funext i
  obtain ⟨p, q, rfl⟩ : ∃ (p : Fin 10000) (q : Fin 64), i = ix2 p q := ⟨i 0, i 1, eq_ix2 i⟩
  rw [val_main_v6_apply, Cert.Gcn.layer_apply]
  refine Finset.sum_congr rfl fun k _ => ?_
  rw [lidx6, ridx6, v5_at]

/-! ## The second hidden layer -/

/-- The product of the adjacency with the second support. -/
theorem v7_eq : val_main_v7 (F := Ideal) x0 x1 x2 x3 x4 = Cert.Gcn.mm x1 (Cert.Gcn.layer x1 (Cert.Gcn.mm x0 x2) x3 x4) := by
  funext i
  obtain ⟨p, q, rfl⟩ : ∃ (p : Fin 10000) (q : Fin 64), i = ix2 p q := ⟨i 0, i 1, eq_ix2 i⟩
  rw [val_main_v7_apply, v6_eq, Cert.Gcn.mm_apply]
  refine Finset.sum_congr rfl fun k _ => ?_
  rw [lidx7, ridx7]

/-- The second bias, repeated down the rows, has at `(p, q)` its entry `q`. -/
theorem v9_at (p : Fin 10000) (q : Fin 64) : val_main_v9 (F := Ideal) x5 (ix2 p q) = x5 (ix1 q) := by
  rw [val_main_v9_apply, idx9, val_main_v8_apply, idx8]

/-- The clamped aggregation of the second layer. -/
theorem v11_at (p : Fin 10000) (q : Fin 64) :
    val_main_v11 (F := Ideal) x0 x1 x2 x3 x4 x5 (ix2 p q)
      = max (Cert.Gcn.agg x1 (Cert.Gcn.layer x1 (Cert.Gcn.mm x0 x2) x3 x4) x5 (ix2 p q)) Cert.Gcn.zero32 := by
  rw [val_main_v11_apply, val_main_v10_apply, val_main_call1_v0_apply, val_main_call1_cst_apply, v7_eq, v9_at]
  rfl

/-- The second hidden layer hands on the third support. -/
theorem v12_eq : val_main_v12 (F := Ideal) x0 x1 x2 x3 x4 x5 x6 = Cert.Gcn.layer x1 (Cert.Gcn.layer x1 (Cert.Gcn.mm x0 x2) x3 x4) x5 x6 := by
  funext i
  obtain ⟨p, q, rfl⟩ : ∃ (p : Fin 10000) (q : Fin 16), i = ix2 p q := ⟨i 0, i 1, eq_ix2 i⟩
  rw [val_main_v12_apply, Cert.Gcn.layer_apply]
  refine Finset.sum_congr rfl fun k _ => ?_
  rw [lidx12, ridx12, v11_at]

/-! ## The output layer -/

/-- The product of the adjacency with the third support. -/
theorem v13_eq : val_main_v13 (F := Ideal) x0 x1 x2 x3 x4 x5 x6 = Cert.Gcn.mm x1 (Cert.Gcn.layer x1 (Cert.Gcn.layer x1 (Cert.Gcn.mm x0 x2) x3 x4) x5 x6) := by
  funext i
  obtain ⟨p, q, rfl⟩ : ∃ (p : Fin 10000) (q : Fin 16), i = ix2 p q := ⟨i 0, i 1, eq_ix2 i⟩
  rw [val_main_v13_apply, v12_eq, Cert.Gcn.mm_apply]
  refine Finset.sum_congr rfl fun k _ => ?_
  rw [lidx13, ridx13]

/-- The third bias, repeated down the rows, has at `(p, q)` its entry `q`. -/
theorem v15_at (p : Fin 10000) (q : Fin 16) : val_main_v15 (F := Ideal) x7 (ix2 p q) = x7 (ix1 q) := by
  rw [val_main_v15_apply, idx15, val_main_v14_apply, idx14]

/-- The aggregation of the output layer. -/
theorem v16_at (p : Fin 10000) (q : Fin 16) :
    val_main_v16 (F := Ideal) x0 x1 x2 x3 x4 x5 x6 x7 (ix2 p q) = Cert.Gcn.agg x1 (Cert.Gcn.layer x1 (Cert.Gcn.layer x1 (Cert.Gcn.mm x0 x2) x3 x4) x5 x6) x7 (ix2 p q) := by
  rw [val_main_v16_apply, v13_eq, v15_at]
  rfl

/-- The last four operations, entry by entry, are `1 / (1 + exp(−z))` at the aggregation `z`: its logistic function. -/
theorem v22_at (p : Fin 10000) (q : Fin 16) :
    val_main_v22 (F := Ideal) x0 x1 x2 x3 x4 x5 x6 x7 (ix2 p q)
      = Ideal.logistic (Cert.Gcn.agg x1 (Cert.Gcn.layer x1 (Cert.Gcn.layer x1 (Cert.Gcn.mm x0 x2) x3 x4) x5 x6) x7 (ix2 p q)) := by
  rw [val_main_v22_apply, val_main_v21_apply, val_main_cst_0_apply, val_main_v20_apply, val_main_v19_apply,
    val_main_cst_apply, val_main_v18_apply, val_main_v17_apply, v16_at]
  simp only [Ideal.hostDivf_def, Ideal.addf_def, Ideal.hostUnary_exp_def, Ideal.hostNegf_def, Ideal.negf_def,
    Ideal.ofBits_def, Ideal.ofBits_one_f32]
  rfl

end Stages

/-- The reference's result, as a function of its eight arguments, is the network. -/
theorem ref_net (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x16, .f32⟩ : BufTy).Contents (Elt Ideal)) (x7 : (⟨S16, .f32⟩ : BufTy).Contents (Elt Ideal)) :
    val_main_v22 (F := Ideal) x0 x1 x2 x3 x4 x5 x6 x7 = Cert.Gcn.net x0 x1 x2 x3 x4 x5 x6 x7 := by
  funext i
  obtain ⟨p, q, rfl⟩ : ∃ (p : Fin 10000) (q : Fin 16), i = ix2 p q := ⟨i 0, i 1, eq_ix2 i⟩
  rw [v22_at]
  rfl

end Cert.ReferenceIdeal.RefValue
-- ==== Proof.lean ====
/-
  The kernel and its reference compute the same three-layer graph-convolution network.

  Both programs form `logistic(A·s₃ + b₃)` with `s₃ = max(A·s₂ + b₂, 0)·W₃`, `s₂ = max(A·s₁ + b₁, 0)·W₂` and
  `s₁ = x·W₁`, with the products associated in the same way. The kernel does it in four launches over blocks of two
  hundred rows of the adjacency, keeping between them a copy of the adjacency and the supports in a narrower float
  format, which at the ideal values is the same number; the reference does it in one pass of whole-matrix operations
  and spells the logistic function as `1 / (1 + exp(−z))`, which is the same function on every extended real. So the
  two results are one function of the arguments (`Cert.Gcn.net`), with no condition on the inputs. The idealized kernel
  is the kernel's own text, so nothing is owed for that step.
-/
import proofs.«151030_g5583457484891_cont_sun_c4_296_4_alg».proof.Defs
import proofs.«151030_g5583457484891_cont_sun_c4_296_4_alg».proof.Proof.Gen.Kernel
import proofs.«151030_g5583457484891_cont_sun_c4_296_4_alg».proof.Proof.Gen.Kernel.Frame
import proofs.«151030_g5583457484891_cont_sun_c4_296_4_alg».proof.Proof.Gen.KernelIdeal
import proofs.«151030_g5583457484891_cont_sun_c4_296_4_alg».proof.Proof.Gen.KernelIdeal.Frame
import proofs.«151030_g5583457484891_cont_sun_c4_296_4_alg».proof.Proof.Gen.ReferenceIdeal
import proofs.«151030_g5583457484891_cont_sun_c4_296_4_alg».proof.Proof.Gen.ReferenceIdeal.Run
import proofs.«151030_g5583457484891_cont_sun_c4_296_4_alg».proof.Proof.Gen.ReferenceIdeal.Read
import proofs.«151030_g5583457484891_cont_sun_c4_296_4_alg».proof.Proof.Gen.Pre_finite_inputs
import proofs.«151030_g5583457484891_cont_sun_c4_296_4_alg».proof.Proof.KernelRun
import proofs.«151030_g5583457484891_cont_sun_c4_296_4_alg».proof.Proof.KernelValue
import proofs.«151030_g5583457484891_cont_sun_c4_296_4_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal reading rewrote no operation. -/
theorem preserves : Cert.preserves_Kernel_KernelIdeal := trivial

/-- From memories that agree on the eight arguments both programs end with the network of those arguments in their
    result buffers. -/
theorem algebraic : Cert.algebraic_KernelIdeal_ReferenceIdeal := by
  intro m ρ m' ρ' _ hagree
  refine ⟨_, Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7⟩ := hagree c
  rw [g0, g1, g2, g3, g4, g5, g6, g7]
  refine (Cert.ReferenceIdeal.Read.val_main_v22_eq _ _ _ _ _ _ _ _).trans ?_
  exact (Cert.ReferenceIdeal.RefValue.ref_net _ _ _ _ _ _ _ _).trans (Cert.KernelIdeal.Value.W7_v11 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
